-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x512.size a
  hwx0_3 : ∀ i : grid0.Coords, EltTy.bits .f32 = 32 ∨ (Rect.block (s := S1024x512) S512x512.size (cc0_transform_3 i) (hinb0_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩

abbrev nBuf : Space → Nat
  | .hbm => 8
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024x512, .f32⟩
  | .hbm, ⟨5, _⟩ => ⟨S1x512, .f32⟩
  | .hbm, ⟨6, _⟩ => ⟨S1024x512, .f32⟩
  | .hbm, ⟨7, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  dot_S1024x512_S512x512_S1024x512_1_1_0_0_n_n_wf : DotDims.WF S1024x512 S512x512 S1024x512 [1] [1] [0] [0] [] []

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

class Facts : Prop extends Facts₀ where

variable [Facts]
-- ==== Proof.Predictor.lean ====
/-
  The function both programs compute, over the extended reals.

  For an input `x : [1024, 512]`, a weight matrix `W : [512, 512]` and a bias `β : [512]`,

      pred x W β (b, i) = x[b,i] · (∑ k < 512, x[b,k] · W[i,k]) + β[i] :

  entry `i` of row `b` of `x`, times the inner product of that row of `x` with row `i` of `W` (entry `(b, i)`
  of `x · Wᵀ`), plus the bias of column `i`. Nothing here depends on a program: the two programs are each shown to
  compute this function, and that is the whole comparison — no law of the extended reals is needed beyond reading
  both sides at an index.
-/
import Idealize.ShloMosaic.PureOps.Ideal
import Idealize.ShloMosaic.Lib.ValueIdx

noncomputable section

open scoped BigOperators

namespace Cert.Predictor

open Idealize.ShloMosaic Idealize.ShloMosaic.ValueIdx

/-- `pred x W β (b, i) = x[b,i] · (∑ k, x[b,k] · W[i,k]) + β[i]`. -/
def pred (x : FVec Ideal ⟨2, ![1024, 512]⟩ .f32) (W : FVec Ideal ⟨2, ![512, 512]⟩ .f32) (β : FVec Ideal ⟨1, ![512]⟩ .f32) :
    FVec Ideal ⟨2, ![1024, 512]⟩ .f32 :=
  fun i => x i * (∑ k : Fin 512, x (ix2 (i 0 : Fin 1024) k) * W (ix2 (i 1 : Fin 512) k)) + β (ix1 (i 1 : Fin 512))

/-- The same, at an index given by its row `b` and column `i`. -/
theorem pred_apply (x : FVec Ideal ⟨2, ![1024, 512]⟩ .f32) (W : FVec Ideal ⟨2, ![512, 512]⟩ .f32) (β : FVec Ideal ⟨1, ![512]⟩ .f32)
    (b : Fin 1024) (i : Fin 512) :
    pred x W β (ix2 b i) = x (ix2 b i) * (∑ k : Fin 512, x (ix2 b k) * W (ix2 i k)) + β (ix1 i) := rfl

end Cert.Predictor

end
-- ==== Proof.BodyValue.lean ====
/-
  What the kernel's body stores, read at one entry of its block.

  At a grid point the body holds a block `x0 : [512, 512]` of rows of the input, the whole weight matrix
  `x1 : [512, 512]` and the bias as a row `x2 : [1, 512]`. It forms the product of `x0` with `x1` contracting the
  SECOND axis of both (so entry `(p, q)` is the inner product of row `p` of `x0` with row `q` of `x1`: `x0 · x1ᵀ`),
  started from the zero matrix; multiplies it entry by entry with `x0`; and adds the bias row repeated down the rows.
  So entry `(p, q)` of what it stores is

      x0[p,q] · (∑ k < 512, x0[p,k] · x1[q,k]) + x2[0,q].

  The product into the zero matrix is the plain sum because `0 + s = s` on the extended reals; the sum's index, a
  one-axis contraction index, is re-indexed by its one coordinate.
-/
import proofs.«124894_j1700807049321_2_alg».proof.Proof.Gen.KernelIdeal.Skeleton
import proofs.«124894_j1700807049321_2_alg».proof.Proof.Predictor
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.Predictor

/-! ## The operand coordinates of the product: left operand at (row of the entry, k), right operand at (column of the entry, k) -/

theorem lhs_row (i : S512x512.Idx) (r : dot_S512x512_S512x512_S512x512_1_1_0_0_n_n.contr.Idx) :
    (dot_S512x512_S512x512_S512x512_1_1_0_0_n_n.lhsIdx i r 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_contr (i : S512x512.Idx) (r : dot_S512x512_S512x512_S512x512_1_1_0_0_n_n.contr.Idx) :
    (dot_S512x512_S512x512_S512x512_1_1_0_0_n_n.lhsIdx i r 1).val = (r ⟨0, by decide⟩).val :=
  dot_S512x512_S512x512_S512x512_1_1_0_0_n_n.lhsIdx_val_of_single rfl i r
theorem rhs_row (i : S512x512.Idx) (r : dot_S512x512_S512x512_S512x512_1_1_0_0_n_n.contr.Idx) :
    (dot_S512x512_S512x512_S512x512_1_1_0_0_n_n.rhsIdx i r 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_contr (i : S512x512.Idx) (r : dot_S512x512_S512x512_S512x512_1_1_0_0_n_n.contr.Idx) :
    (dot_S512x512_S512x512_S512x512_1_1_0_0_n_n.rhsIdx i r 1).val = (r ⟨0, by decide⟩).val :=
  dot_S512x512_S512x512_S512x512_1_1_0_0_n_n.rhsIdx_val_of_single rfl i r

/-- Entry `(p, q)` of the product into the zero matrix is the inner product of row `p` of the left operand with
    row `q` of the right one. -/
theorem rows_product_apply (x0 x1 : FVec Ideal S512x512 .f32) (p q : Fin 512) :
    matmul dot_S512x512_S512x512_S512x512_1_1_0_0_n_n none x0 x1 (constant (F := Ideal) S512x512 .f32 0x00000000#32) (ix2 p q)
      = ∑ k : Fin 512, x0 (ix2 p k) * x1 (ix2 q k) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun a => Fin.ext (by
    match a with
    | ⟨0, _⟩ => exact lhs_row _ _
    | ⟨1, _⟩ => exact (lhs_contr _ _).trans hk)
  have er : dot_S512x512_S512x512_S512x512_1_1_0_0_n_n.rhsIdx (ix2 p q) ((contrEquiv1 dot_S512x512_S512x512_S512x512_1_1_0_0_n_n 512 rfl rfl).symm k) = ix2 q k := funext fun a => Fin.ext (by
    match a with
    | ⟨0, _⟩ => exact rhs_row _ _
    | ⟨1, _⟩ => exact (rhs_contr _ _).trans hk)
  rw [el, er]

/-- The bias row repeated down the 512 rows, read at `(p, q)`, is the row's entry `q`. -/
theorem bias_rows_apply (x2 : FVec Ideal S1x512 .f32) (p q : Fin 512) :
    broadcastTo S512x512 (shapeCast S1x512 x2 shapeCasts_S1x512_S1x512) broadcasts_S1x512_S512x512 (ix2 p q) = x2 (ix2 (0 : Fin 1) q) := by
  rw [shapeCast_self]
  exact broadcastTo_apply x2 broadcasts_S1x512_S512x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])

/-- What the body stores, at entry `(p, q)` of its block. -/
theorem payload_apply (x0 x1 : FVec Ideal S512x512 .f32) (x2 : FVec Ideal S1x512 .f32) (p q : Fin 512) :
    k0_pay1 (F := Ideal) x0 x1 x2 (ix2 p q) = x0 (ix2 p q) * (∑ k : Fin 512, x0 (ix2 p k) * x1 (ix2 q k)) + x2 (ix2 (0 : Fin 1) q) := by
  unfold k0_pay1
  rw [addf_apply, mulf_apply, rows_product_apply, bias_rows_apply]

/-- So, when the block `x0` holds row `b` of an input `X` in its row `p`, `x1` holds the rows of `W` and `x2` the
    bias `β` as a row, entry `(p, q)` of what the body stores is the predictor of `X`, `W`, `β` at `(b, q)`. -/
theorem payload_is_pred (X : FVec Ideal ⟨2, ![1024, 512]⟩ .f32) (W : FVec Ideal ⟨2, ![512, 512]⟩ .f32) (β : FVec Ideal ⟨1, ![512]⟩ .f32)
    (x0 x1 : FVec Ideal S512x512 .f32) (x2 : FVec Ideal S1x512 .f32) (b : Fin 1024) (p q : Fin 512)
    (hx : ∀ k : Fin 512, x0 (ix2 p k) = X (ix2 b k)) (hw : ∀ k : Fin 512, x1 (ix2 q k) = W (ix2 q k))
    (hβ : x2 (ix2 (0 : Fin 1) q) = β (ix1 q)) :
    k0_pay1 (F := Ideal) x0 x1 x2 (ix2 p q) = pred X W β (ix2 b q) := by
  rw [payload_apply, pred_apply, hx q, hβ]
  simp only [hx, hw]

end Cert.KernelIdeal.BodyValue

end
-- ==== Proof.ArrayValue.lean ====
/-
  The kernel's result array, as one function of the argument arrays.

  The kernel walks a grid of two points. At point `t` it is given rows `512·t … 512·t + 511` of the input (a block
  `[512, 512]`), the whole weight matrix and the whole bias row at both points, and it writes back rows
  `512·t … 512·t + 511` of the result. The bias row it is given is the bias vector `[512]` laid out as `[1, 512]` by
  the one host operation that runs before the grid.

  Written here: each block the body is given, read at an entry, as an entry of the argument array it comes from; that
  what point `t` writes back is block `t` of the predictor of the argument arrays (the body's stored value at entry
  `(p, q)` of the block is the predictor at row `512·t + p`, column `q`); that the two blocks cover the result array
  (row `r` lies in block `r / 512`); hence the array after the run IS the predictor of the arguments, and the run
  restated with that.
-/
import proofs.«124894_j1700807049321_2_alg».proof.Proof.Gen.KernelIdeal.Value
import proofs.«124894_j1700807049321_2_alg».proof.Proof.BodyValue
import Idealize.ShloMosaic.Lib.Pipeline.Value
import Idealize.ShloMosaic.Lib.ValueIdx
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.Predictor Cert.KernelIdeal.BodyValue
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Where each window's block sits, decided over the two grid points -/

/-- The input's block moves down the rows with the output's block; the weight matrix and the bias row are given
    whole at every point; the output's block index along the rows is 0 or 1 and along the columns 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 1 :=
  (by decide +kernel : ∀ t : Fin grid0.N, _)

/-- Each of the two row blocks of the result is some point's. -/
theorem index_onto : ∀ r : Fin 2, ∃ t : Fin cfg0.N, win0_3.index t (0 : Fin 2) = r.val :=
  (by decide +kernel : ∀ r : Fin 2, ∃ t : Fin grid0.N, win0_3.index t (0 : Fin 2) = r.val)

/-! ## The blocks the body is given, read at an entry -/

/-- Row `p` of the input's block at point `t` is row `b` of the input, where `b = 512 · (block index) + p`. -/
theorem input_block_apply (c : Dev nD) (t : Fin cfg0.N) (p k : Fin 512) (b : Fin 1024)
    (hb : b.val = win0_3.index t (0 : Fin 2) * 512 + p.val) :
    iblk m c 0 t (ix2 p k) = m ((c : Thread nD τ).loc main_arg0) (ix2 b k) := by
  obtain ⟨e0, e1, -⟩ := index_facts t
  refine Eq.trans ?_ (congrFun (V_main_arg0 m c) (ix2 b k))
  show V m c main_arg0 (((cfg0.win 0).blk t).view.emb (ix2 p k)) = V m c main_arg0 (ix2 b k)
  refine congrArg (V m c main_arg0) (funext fun a => Fin.ext ?_)
  match a with
  | ⟨0, _⟩ => show win0_0.index t (0 : Fin 2) * 512 + 1 * p.val = b.val; omega
  | ⟨1, _⟩ => show win0_0.index t (1 : Fin 2) * 512 + 1 * k.val = k.val; omega

/-- The weight block at any point is the weight matrix. -/
theorem weight_block_apply (c : Dev nD) (t : Fin cfg0.N) (q k : Fin 512) :
    iblk m c 1 t (ix2 q k) = m ((c : Thread nD τ).loc main_arg1) (ix2 q k) := by
  obtain ⟨-, -, e2, e3, -⟩ := index_facts t
  refine Eq.trans ?_ (congrFun (V_main_arg1 m c) (ix2 q k))
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 512 + 1 * q.val = q.val; omega
  | ⟨1, _⟩ => show win0_1.index t (1 : Fin 2) * 512 + 1 * k.val = k.val; omega

/-- The bias row as the grid finds it: the bias vector laid out as one row by the host, so its entry `(0, q)` is the
    vector's entry `q`. -/
theorem bias_row_apply (c : Dev nD) (q : Fin 512) :
    V m c main_v0 (ix2 (0 : Fin 1) q) = m ((c : Thread nD τ).loc main_arg2) (ix1 q) := by
  have e : (V m c main_v0 : S1x512.Idx → Elt Ideal .f32)
      = shapeCast S1x512 (m ((c : Thread nD τ).loc main_arg2)) shapeCasts_S512_S1x512 := by
    dsimp only [Gen.V, Gen.hostOps0]; after_results; rfl
  refine (congrFun e (ix2 (0 : Fin 1) q)).trans ?_
  refine (shapeCast_addUnit_apply ![512] (m ((c : Thread nD τ).loc main_arg2)) shapeCasts_S512_S1x512 (ix2 (0 : Fin 1) q)).trans ?_
  refine congrArg (m ((c : Thread nD τ).loc main_arg2)) (funext fun a => ?_)
  match a with
  | ⟨0, _⟩ => rfl

/-- The bias block at any point is that row. -/
theorem bias_block_apply (c : Dev nD) (t : Fin cfg0.N) (q : Fin 512) :
    iblk m c 2 t (ix2 (0 : Fin 1) q) = m ((c : Thread nD τ).loc main_arg2) (ix1 q) := by
  obtain ⟨-, -, -, -, e4, e5, -⟩ := index_facts t
  refine Eq.trans ?_ (bias_row_apply m c q)
  show V m c main_v0 (((cfg0.win 2).blk t).view.emb (ix2 (0 : Fin 1) q)) = V m c main_v0 (ix2 (0 : Fin 1) q)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-! ## What a point writes back -/

/-- Point `t` writes back block `t` of the predictor of the three argument arrays. -/
theorem flushed_eq (c : Dev nD) (t : Fin cfg0.N) :
    (dats m 0 c).flushed 3 t = ((cfg0.win 3).blk t).view.read (Elt Ideal)
      (pred (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S512x512) zero_offsets, View.ld_unit_zero (S := S1x512) zero_offsets]
  obtain ⟨-, -, -, -, -, -, e6, e7⟩ := index_facts t
  refine funext fun (j : S512x512.Idx) => ?_
  obtain ⟨p, q, rfl⟩ : ∃ (p q : Fin 512), j = ix2 p q := ⟨j 0, j 1, eq_ix2 j⟩
  have hlt : win0_3.index t (0 : Fin 2) * 512 + p.val < 1024 := by have := p.isLt; omega
  have hemb : ((cfg0.win 3).blk t).view.emb (ix2 p q) = ix2 (⟨win0_3.index t (0 : Fin 2) * 512 + p.val, hlt⟩ : Fin 1024) q := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 512 + 1 * q.val = q.val; omega
  show k0_pay1 (iblk m c 0 t) (iblk m c 1 t) (iblk m c 2 t) (ix2 p q)
    = pred (m ((c : Thread nD τ).loc main_arg0)) (m ((c : Thread nD τ).loc main_arg1)) (m ((c : Thread nD τ).loc main_arg2))
        (((cfg0.win 3).blk t).view.emb (ix2 p q))
  rw [hemb]
  exact payload_is_pred (m ((c : Thread nD τ).loc main_arg0)) (m ((c : Thread nD τ).loc main_arg1)) (m ((c : Thread nD τ).loc main_arg2))
    (iblk m c 0 t) (iblk m c 1 t) (iblk m c 2 t) ⟨win0_3.index t (0 : Fin 2) * 512 + p.val, hlt⟩ p q
    (fun k => input_block_apply m c t p k ⟨win0_3.index t (0 : Fin 2) * 512 + p.val, hlt⟩ rfl)
    (fun k => weight_block_apply m c t q k)
    (bias_block_apply m c t q)

/-! ## The two blocks cover the result -/

/-- An entry of the result lies in point `t`'s block iff, on each axis, its coordinate lies in the block's range. -/
theorem mem_block (t : Fin cfg0.N) (i : S1024x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- Every entry of the result is in the block of some point that writes back: row `r` is in block `r / 512`. -/
theorem covered (i : S1024x512.Idx) : ∃ t : Fin cfg0.N, (cfg0.win 3).flush t = true ∧ i ∈ ((cfg0.win 3).blk t).view.set := by
  have hi0 : (i 0).val < 1024 := (i 0).isLt
  have hi1 : (i 1).val < 512 := (i 1).isLt
  obtain ⟨t, ht⟩ := index_onto ⟨(i 0).val / 512, by omega⟩
  have ht' : win0_3.index t (0 : Fin 2) = (i 0).val / 512 := ht
  obtain ⟨-, -, -, -, -, -, e6, -⟩ := index_facts t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-! ## The result array, and the run restated -/

/-- The result array after the run is the predictor of the three argument arrays. -/
theorem result_array (c : Dev nD) : (dats m 0 c).arrAt 3 cfg0.N
    = pred (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result array at the predictor of the
    argument arrays, and the arguments unchanged. -/
theorem run : θ_run defs (onTc (τ := τ) (main (F := Ideal))) ⟨m, fun _ => 0, ρ⟩ fun r => ∀ c : Dev nD,
      r.2.mem ((c : Thread nD τ).loc main_v1)
        = pred (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.KernelIdeal.ArrayValue

end
-- ==== Proof.ReferenceValue.lean ====
/-
  The reference computes the predictor.

  The reference forms `x · Wᵀ` by one contraction of the second axis of `x` with the second axis of `W`, multiplies
  it entry by entry with `x`, and adds the bias, which it first lays out as a row `[1, 512]` and then repeats down the
  1024 rows. Read at an entry `(b, i)`, one operation at a time: the contraction is `∑ k, x[b,k] · W[i,k]`; the product
  with `x` multiplies by `x[b,i]`; the repeated bias row is `β[i]`. That is `pred x W β (b, i)` as written.
-/
import proofs.«124894_j1700807049321_2_alg».proof.Proof.Gen.ReferenceIdeal.Read
import proofs.«124894_j1700807049321_2_alg».proof.Proof.Predictor

noncomputable section

open scoped BigOperators

namespace Cert.ReferenceIdeal.RefValue

open Cert.ReferenceIdeal Cert.ReferenceIdeal.Read Idealize.ShloMosaic Idealize.ShloMosaic.ValueIdx Cert.Predictor

/-- The reference's last stage, as a function of its three arguments, is the predictor. -/
theorem reference_is_pred (x0 : (⟨S1024x512, .f32⟩ : BufTy).Contents (Elt Ideal)) (x1 : (⟨S512x512, .f32⟩ : BufTy).Contents (Elt Ideal))
    (x2 : (⟨S512, .f32⟩ : BufTy).Contents (Elt Ideal)) :
    val_main_v4 (F := Ideal) x0 x1 x2 = pred x0 x1 x2 := by
  funext i
  obtain ⟨b, j, rfl⟩ : ∃ (b : Fin 1024) (j : Fin 512), i = ix2 b j := ⟨i 0, i 1, eq_ix2 i⟩
  rw [val_main_v4_apply, val_main_v1_apply, val_main_v0_apply, val_main_v3_apply, val_main_v2_apply]
  -- the operand coordinates the stages read, in coordinates of the entry
  have el : ∀ k : Fin 512, lidx_main_v0 (ix2 b j) k = ix2 b k := fun k => funext fun a => by
    match a with | ⟨0, _⟩ => rfl | ⟨1, _⟩ => rfl
  have er : ∀ k : Fin 512, ridx_main_v0 (ix2 b j) k = ix2 j k := fun k => funext fun a => by
    match a with | ⟨0, _⟩ => rfl | ⟨1, _⟩ => rfl
  have eb : idx_main_v2 (idx_main_v3 (ix2 b j)) = ix1 j := funext fun a => by
    match a with | ⟨0, _⟩ => rfl
  simp only [el, er, eb]
  rfl

end Cert.ReferenceIdeal.RefValue

end
-- ==== Proof.lean ====
/-
  The kernel and its reference compute the same array over the extended reals.

  Both take an input `x : [1024, 512]`, a weight matrix `W : [512, 512]` and a bias `β : [512]`, and both produce

      out[b, i] = x[b,i] · (∑ k < 512, x[b,k] · W[i,k]) + β[i]            (`Cert.Predictor.pred`),

  that is `x ∘ (x · Wᵀ) + β` with `∘` the entrywise product and `β` repeated down the rows.

  The reference does it with whole arrays: one contraction of the second axes of `x` and `W`, an entrywise product with
  `x`, the bias laid out as a row and repeated (Proof/ReferenceValue.lean reads these stages at an entry). The kernel does
  it in two blocks of 512 rows: at each of its two grid points it is given 512 rows of `x`, all of `W` and the bias as a
  row, forms the same contraction started from the zero matrix, multiplies by its rows of `x`, adds the bias row, and
  writes the 512 result rows back (Proof/BodyValue.lean: what is stored, at an entry; Proof/ArrayValue.lean: the blocks
  as entries of the arguments, the two blocks cover the result, so the result array is `pred` of the arguments).

  The two sides are the SAME expression at every entry — the sum started from zero is the sum, since `0 + s = s` — so
  no law that could fail at an infinity (distributivity, cancellation) is used, and the hypothesis that the inputs are
  finite is never opened. Splitting the rows into blocks changes nothing at an entry: every entry depends only on its
  own row of `x`, one row of `W` and one entry of `β`.

  The idealized kernel is the kernel's own text read over the extended reals (nothing was rewritten), so that claim
  holds trivially. Each program terminates without fault and leaves its arguments unchanged: for the two kernels that is
  the generated frame; for the reference, its generated run with the result dropped.
-/
import proofs.«124894_j1700807049321_2_alg».proof.Defs
import proofs.«124894_j1700807049321_2_alg».proof.Proof.Gen.Kernel
import proofs.«124894_j1700807049321_2_alg».proof.Proof.Gen.Kernel.Skeleton
import proofs.«124894_j1700807049321_2_alg».proof.Proof.Gen.Kernel.Launch
import proofs.«124894_j1700807049321_2_alg».proof.Proof.Gen.Kernel.Points
import proofs.«124894_j1700807049321_2_alg».proof.Proof.Gen.Kernel.Frame
import proofs.«124894_j1700807049321_2_alg».proof.Proof.Gen.KernelIdeal
import proofs.«124894_j1700807049321_2_alg».proof.Proof.Gen.KernelIdeal.Skeleton
import proofs.«124894_j1700807049321_2_alg».proof.Proof.Gen.KernelIdeal.Launch
import proofs.«124894_j1700807049321_2_alg».proof.Proof.Gen.KernelIdeal.Points
import proofs.«124894_j1700807049321_2_alg».proof.Proof.Gen.KernelIdeal.Frame
import proofs.«124894_j1700807049321_2_alg».proof.Proof.Gen.ReferenceIdeal
import proofs.«124894_j1700807049321_2_alg».proof.Proof.Gen.Pre_finite_inputs
import proofs.«124894_j1700807049321_2_alg».proof.Proof.Gen.KernelIdeal.Value
import proofs.«124894_j1700807049321_2_alg».proof.Proof.Gen.ReferenceIdeal.Run
import proofs.«124894_j1700807049321_2_alg».proof.Proof.Gen.ReferenceIdeal.Read
import proofs.«124894_j1700807049321_2_alg».proof.Proof.ArrayValue
import proofs.«124894_j1700807049321_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed terminates without fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories that agree on the three arguments, the kernel's result array ends at `pred` of its arguments
    (Proof/ArrayValue.lean) and the reference's at its last stage, which is `pred` of its arguments
    (Proof/ReferenceValue.lean): the same array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_is_pred,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
